-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x1 : Shape := ⟨2, ![8192, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_

variable [Facts]

def fn {F : FTy → Type} [FloatOps F] (main_arg0 : FVec F S8192x256 .f32) (main_arg1 : FVec F S8192x256 .f32) (main_arg2 : FVec F S8192x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  main_v13
-- ==== Kernel.lean ====
abbrev S8192x256 : Shape := ⟨2, ![8192, 256]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 15
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S8192x256, .bf16⟩
  | .hbm, ⟨4, _⟩ => ⟨S8192x256, .bf16⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S1x8192, .f32⟩
  | .hbm, ⟨14, _⟩ => ⟨S8192x1, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1x8192, .f32⟩
  | .local _ .vmem, ⟨4, _⟩ => ⟨S1x8192, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v4 : Index := Scalar.indexCast v1
  let c0_1 : Index := 0#32
  ![v4.toNat, 0]
def k0_off2 (i : grid0.Coords) : Fin 2 → Nat :=
  let c0_2 : Index := 0#32
  let arg1 : BitVec 32 := BitVec.ofNat 32 (i 1).val
  let c1024_i32 : BitVec 32 := 1024#32
  let v0 : BitVec 32 := Scalar.muli arg1 c1024_i32
  let v1 : BitVec 32 := v0
  let v7 : Index := Scalar.indexCast v1
  ![0, v7.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  transposes_S8192x1_S1x8192_1_0 : S8192x1.Transposes [1, 0] S1x8192
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S1x1024 : 0 < S1x1024.numel
  shapeCasts_S1x1024_S1x1024 : S1x1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [1] S1024
  shapeCasts_S1024_S1024x1 : S1024.ShapeCasts S1024x1
  dot_S1024x256_S256x1024_S1024x1024_1_0_0_1_n_n_wf : DotDims.WF S1024x256 S256x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  k0_off2_inb : ∀ i : grid0.Coords, ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 43
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S256x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .i1⟩
  | .hbm, ⟨24, _⟩ => ⟨S8192x8192, .i1⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .i1⟩
  | .hbm, ⟨32, _⟩ => ⟨S8192x8192, .i1⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x1, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v17 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []
  dot_S8192x8192_S8192x1_S8192x1_1_0_0_1_n_n_wf : DotDims.WF S8192x8192 S8192x1 S8192x1 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.Pieces.lean ====
/-
  What the kernel body leaves in its output block, as a value.  The body computes the 1024 row sums of its masked,
  target-weighted Gaussian weights (its arithmetic, one pure function of the five blocks it loads: the query rows, a
  1024-row part of the training rows, the matching parts of the targets and of the training rows' squared norms, and the
  query rows' squared norms) and adds them, as a column, to the output block.  In the first column block of a row block it
  first stores zeros and reads them back, so the block ends at 0 + row sums; in the later ones the block ends at what the
  point before left + row sums.
-/
import proofs.«175335_j22720376995867_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The 1024 training rows the body cuts out of the resident array of all 8192, at the row offset of its column block. -/
abbrev rowsPart (i : grid0.Coords) (x1 : Vec F S8192x256 .bf16) : Vec F S1024x256 .bf16 :=
  View.ld x1 (Rect.unit (s := S8192x256) (k0_off1 i) S1024x256.size (k0_off1_inb i))

/-- The 1024 entries it cuts out of a resident row of 8192, at the same offset. -/
abbrev rowPart (i : grid0.Coords) (x : Vec F S1x8192 .f32) : Vec F S1x1024 .f32 :=
  View.ld x (Rect.unit (s := S1x8192) (k0_off2 i) S1x1024.size (k0_off2_inb i))

/-- A later column block: the output block, holding `xo5`, ends at `xo5` + the row sums. -/
theorem out_B (c : Dev nD) (i : grid0.Coords) (a2 : Memref sig .tc .vmem S1024x256 .bf16) (h2 : a2.IsWhole) (a3 : Memref sig .tc .vmem S8192x256 .bf16) (h3 : a3.IsWhole) (a4 : Memref sig .tc .vmem S1x8192 .f32) (h4 : a4.IsWhole) (a5 : Memref sig .tc .vmem S1x8192 .f32) (h5 : a5.IsWhole) (a6 : Memref sig .tc .vmem S1024x1 .f32) (h6 : a6.IsWhole) (a7 : Memref sig .tc .vmem S1024x1 .f32) (h7 : a7.IsWhole) (hc : ¬cond0_0 i) (x0 : Vec F S1024x256 .bf16) (x1 : Vec F S8192x256 .bf16) (x2 : Vec F S1x8192 .f32) (x3 : Vec F S1x8192 .f32) (x4 : Vec F S1024x1 .f32) (xo5 : Vec F S1024x1 .f32) :
    out0_B_5 c i a2 h2 a3 h3 a4 h4 a5 h5 a6 h6 a7 h7 hc x0 x1 x2 x3 x4 xo5
      = k0_pay2 (k0_pay3 i x0 (rowsPart i x1) (rowPart i x2) (rowPart i x3) x4) xo5 := by
  unfold out0_B_5
  rw [View.read_writes_eq_canon _ _ _ (cover0_B_5 c i a2 h2 a3 h3 a4 h4 a5 h5 a6 h6 a7 h7 hc x0 x1 x2 x3 x4 xo5)]
  unfold kernelRun0_B
  dsimp only
  sl_unfold_words
  rw [View.canon_unit_zero (S := S1024x1) hz]
  simp only [View.readAt_eq_ld, h2.read_unread, h3.read_unread, h4.read_unread, h5.read_unread, h6.read_unread, h7.read_unread,
    View.ld_unit_zero (S := S1024x256) hz, View.ld_unit_zero (S := S1024x1) hz]
  rfl

/-- The first column block: the output block is zeroed, read back, and ends at 0 + the row sums. -/
theorem out_A (c : Dev nD) (i : grid0.Coords) (a2 : Memref sig .tc .vmem S1024x256 .bf16) (h2 : a2.IsWhole) (a3 : Memref sig .tc .vmem S8192x256 .bf16) (h3 : a3.IsWhole) (a4 : Memref sig .tc .vmem S1x8192 .f32) (h4 : a4.IsWhole) (a5 : Memref sig .tc .vmem S1x8192 .f32) (h5 : a5.IsWhole) (a6 : Memref sig .tc .vmem S1024x1 .f32) (h6 : a6.IsWhole) (a7 : Memref sig .tc .vmem S1024x1 .f32) (h7 : a7.IsWhole) (hc : cond0_0 i) (x0 : Vec F S1024x256 .bf16) (x1 : Vec F S8192x256 .bf16) (x2 : Vec F S1x8192 .f32) (x3 : Vec F S1x8192 .f32) (x4 : Vec F S1024x1 .f32) :
    out0_A_5 c i a2 h2 a3 h3 a4 h4 a5 h5 a6 h6 a7 h7 hc x0 x1 x2 x3 x4
      = k0_pay2 (k0_pay3 i x0 (rowsPart i x1) (rowPart i x2) (rowPart i x3) x4) (k0_pay1 (F := F)) := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread, h5.read_unread, h6.read_unread,
    View.ld_unit_zero (S := S1024x256) hz, View.ld_unit_zero (S := S1024x1) hz]
  rfl

end Cert.KernelIdeal.Pieces

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibSignedCompare.lean ====
/-
  A signed comparison of two 32-bit words that hold small natural numbers is the comparison of the numbers: a
  natural below 2³¹ read as a signed word is itself, so "≥" on the words (as a one-bit result equal to 1) is "≤" the
  other way on the naturals.  This is what a causal mask "row ≥ column" built from two index grids comes to.
-/
import Idealize.ShloMosaic.Lib.Affine

namespace Cert.Lib.SignedCompare

open Idealize.ShloMosaic

/-- A natural below 2³¹, as a 32-bit word read signed, is itself. -/
theorem toInt_small (a : ℕ) (h : a < 2147483648) : (BitVec.ofNat 32 a).toInt = (a : Int) := by
  rw [BitVec.toInt_eq_toNat_cond, BitVec.toNat_ofNat]
  have e : a % 2 ^ 32 = a := Nat.mod_eq_of_lt (by omega)
  rw [e]
  split
  · rfl
  · rename_i hh; exfalso; apply hh; omega

/-- "a ≥ b" on the words of two naturals below 2³¹, compared signed, holds exactly when b ≤ a. -/
theorem sge_small (a b : ℕ) (ha : a < 2147483648) (hb : b < 2147483648) :
    IntOp.cmpi .sge (BitVec.ofNat 32 a) (BitVec.ofNat 32 b) = 1#1 ↔ b ≤ a := by
  rw [IntOp.cmpi_sge, toInt_small a ha, toInt_small b hb]; omega

end Cert.Lib.SignedCompare
-- ==== Proof.Weights.lean ====
/-
  Gaussian kernel regression with a causal, leave-one-out mask, as one function of its three argument arrays over the
  extended reals.  For query rows x (8192 × 256), training rows y (8192 × 256) and training targets v (8192 × 1):

      out p = ∑ q, w p q · v q,      w p q = exp (-½ · max (‖x p‖² + ‖y q‖² − 2 ⟨x p, y q⟩, 0))  if q < p,   0 otherwise.

  Two facts join the two programs to this function.  A masked weight written as exp (-½ · (+∞)) is 0, because a negative
  real times +∞ is −∞ and exp (−∞) = 0; so masking the squared distance by +∞ before the exponential and masking the
  weight by 0 after it are the same.  And a sum over the 8192 training rows is the sum, over the eight blocks of 1024
  consecutive rows, of the blocks' sums: addition of extended reals is commutative and associative, so the order and
  grouping of a finite sum do not matter (no finiteness of the entries is used).
-/
import Idealize.ShloMosaic.PureOps.Ideal
import Idealize.ShloMosaic.PureOps.Ideal.Laws
import Idealize.ShloMosaic.Lib.ValueIdx

noncomputable section

namespace Cert.Regress

open Idealize.ShloMosaic Idealize.ShloMosaic.ValueIdx

/-- A matrix of 8192 rows of 256 features, and a column of 8192 values. -/
abbrev Mat : Type := (⟨2, ![8192, 256]⟩ : Shape).Idx → EReal
abbrev Col : Type := (⟨2, ![8192, 1]⟩ : Shape).Idx → EReal

/-- The four float constants of the two programs: 0, 2, −½ and +∞. -/
abbrev zero : EReal := Ideal.ofBits .f32 0x00000000#32
abbrev two : EReal := Ideal.ofBits .f32 0x40000000#32
abbrev negHalf : EReal := Ideal.ofBits .f32 0xBF000000#32
abbrev posInf : EReal := Ideal.ofBits .f32 0x7F800000#32

/-- Row `b·1024 + r` of an array of 8192 rows (the remainder only makes the function total: it is never taken for `b < 8`). -/
def blk (b : ℕ) (r : Fin 1024) : Fin 8192 := ⟨(1024 * b + r.val) % 8192, Nat.mod_lt _ (by decide)⟩

theorem blk_val (b : ℕ) (r : Fin 1024) (hb : b < 8) : (blk b r).val = 1024 * b + r.val := by
  have := r.isLt
  show (1024 * b + r.val) % 8192 = _
  exact Nat.mod_eq_of_lt (by omega)

/-- The squared norm of row `p`, summed from the float zero as both programs do. -/
def rowSq (x : Mat) (p : Fin 8192) : EReal := zero + ∑ k : Fin 256, x (ix2 p k) * x (ix2 p k)
/-- The inner product of row `p` of `x` and row `q` of `y`. -/
def gram (x y : Mat) (p q : Fin 8192) : EReal := ∑ k : Fin 256, x (ix2 p k) * y (ix2 q k)
/-- The squared distance in its expanded form, clamped at zero. -/
def dist2 (x y : Mat) (p q : Fin 8192) : EReal := max (rowSq x p + rowSq y q - two * gram x y p q) zero
/-- The weight of training row `q` for query row `p`: Gaussian in the distance for the strictly earlier rows, zero otherwise. -/
def weight (x y : Mat) (p q : Fin 8192) : EReal :=
  if q.val < p.val then Ideal.exp (negHalf * dist2 x y p q) else zero
/-- The regression's value at row `p`. -/
def G (x y : Mat) (v : Col) (p : Fin 8192) : EReal := ∑ q : Fin 8192, weight x y p q * v (ix2 q (0 : Fin 1))

/-- The part of that sum contributed by block `j` of the training rows. -/
def chunk (x y : Mat) (v : Col) (p : Fin 8192) (j : ℕ) : EReal :=
  ∑ c : Fin 1024, weight x y p (blk j c) * v (ix2 (blk j c) (0 : Fin 1))

/-- exp (-½ · (+∞)) = 0: a negative real times +∞ is −∞, and exp (−∞) = 0. -/
theorem exp_masked : Ideal.exp (negHalf * posInf) = zero := by
  have h1 : negHalf = ((-(1 / 2) : ℝ) : EReal) := by
    simp [Ideal.ofBits, Ideal.ieee, -EReal.coe_mul]; norm_num
  have h2 : posInf = ⊤ := by simp [Ideal.ofBits, Ideal.ieee]
  rw [h1, h2, EReal.coe_mul_top_of_neg (by norm_num)]
  show Ideal.exp ⊥ = Ideal.ofBits .f32 0x00000000#32
  rw [Ideal.ofBits_zero_f32]
  rfl

/-- The weight with the mask applied to the distance, before the exponential: the same weight. -/
theorem weight_of_masked_dist (x y : Mat) (p q : Fin 8192) :
    Ideal.exp (negHalf * (if q.val < p.val then dist2 x y p q else posInf)) = weight x y p q := by
  unfold weight
  split
  · rfl
  · exact exp_masked

/-- A sum over 8192 rows is the sum over the eight blocks of 1024 rows of the blocks' sums. -/
theorem sum_blocks {M : Type} [AddCommMonoid M] (f : Fin 8192 → M) :
    ∑ q : Fin 8192, f q = ∑ j ∈ Finset.range 8, ∑ c : Fin 1024, f (blk j c) := by
  rw [← Fin.sum_univ_eq_sum_range (fun j => ∑ c : Fin 1024, f (blk j c)) 8]
  have e := (finProdFinEquiv (m := 8) (n := 1024)).sum_comp (fun q : Fin (8 * 1024) => f q)
  rw [Fintype.sum_prod_type] at e
  refine e.symm.trans (Finset.sum_congr rfl fun j _ => Finset.sum_congr rfl fun c _ => congrArg f (Fin.ext ?_))
  have hj := j.isLt
  have hc := c.isLt
  show c.val + 1024 * j.val = (1024 * j.val + c.val) % 8192
  omega

/-- So the regression's value is the sum of its eight block contributions. -/
theorem G_eq_sum_chunks (x y : Mat) (v : Col) (p : Fin 8192) :
    G x y v p = ∑ j ∈ Finset.range 8, chunk x y v p j := by
  unfold G chunk
  exact sum_blocks fun q => weight x y p q * v (ix2 q (0 : Fin 1))

end Cert.Regress

end
-- ==== Proof.Payload.lean ====
/-
  The kernel body's arithmetic, read one entry at a time over the extended reals.

  At the grid point (bi, bj) the body holds the block of 1024 query rows x (bf16 and f32 are the same extended reals), their
  squared norms as a column, and — cut out of the resident arrays at row offset 1024·bj — 1024 training rows y, their squared
  norms and their targets as rows.  It forms the 1024 × 1024 table of squared distances (the norms broadcast along the two
  axes, minus twice the matrix product, clamped at zero), the Gaussian weights exp (-½ · distance), sets to zero every weight
  whose global column index 1024·bj + c is not below its global row index 1024·bi + r, multiplies by the targets and sums
  each row.  Read at row r the result is the sum over the 1024 columns c of (masked weight) · (target).
-/
import proofs.«175335_j22720376995867_1_alg».proof.Proof.Gen.KernelIdeal.Skeleton
import proofs.«175335_j22720376995867_1_alg».proof.Proof.LibColumnLayout
import proofs.«175335_j22720376995867_1_alg».proof.Proof.LibReduceLayout
import proofs.«175335_j22720376995867_1_alg».proof.Proof.LibSignedCompare
import proofs.«175335_j22720376995867_1_alg».proof.Proof.Weights
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Regress
open Cert.Lib.ColumnLayout Cert.Lib.ReduceLayout Cert.Lib.SignedCompare

/-- The 32-bit word 1024·a + b (a block index times the block size plus an offset in the block), read signed, is that number. -/
theorem toInt_affine (a b : ℕ) (ha : a < 8) (hb : b < 1024) :
    (IntOp.addi (Scalar.muli (BitVec.ofNat 32 a) 1024#32) (BitVec.ofNat 32 b)).toInt = ((1024 * a + b : ℕ) : Int) := by
  have e : IntOp.addi (Scalar.muli (BitVec.ofNat 32 a) 1024#32) (BitVec.ofNat 32 b) = BitVec.ofNat 32 (1024 * a + b) := by
    apply BitVec.eq_of_toNat_eq
    simp only [IntOp.addi, Scalar.muli, IntOp.muli, BitVec.toNat_add, BitVec.toNat_mul, BitVec.toNat_ofNat, Nat.reducePow, Nat.reduceMod]
    omega
  rw [e, toInt_small _ (by omega)]

/-- The mask at (r, c): the global column index is strictly below the global row index. -/
theorem mask_apply (i : grid0.Coords) (r c : Fin 1024) :
    (cmpi .slt
      (broadcastTo S1024x1024 (addi (broadcast S1x1024 (Scalar.muli (BitVec.ofNat 32 (i 1).val) 1024#32)) (iota .tc S1x1024 32 [1] iota_S1x1024_d1_w32)) broadcasts_S1x1024_S1024x1024)
      (broadcastTo S1024x1024 (addi (broadcast S1024x1 (Scalar.muli (BitVec.ofNat 32 (i 0).val) 1024#32)) (iota .tc S1024x1 32 [0] iota_S1024x1_d0_w32)) broadcasts_S1024x1_S1024x1024)
      : IVec S1024x1024 1) (ix2 r c) = 1#1 ↔ 1024 * (i 1).val + c.val < 1024 * (i 0).val + r.val := by
  have h0 : (i 0).val < 8 := (i 0).isLt
  have h1 : (i 1).val < 8 := (i 1).isLt
  show IntOp.cmpi .slt (broadcastTo S1024x1024 _ broadcasts_S1x1024_S1024x1024 (ix2 r c)) (broadcastTo S1024x1024 _ broadcasts_S1024x1_S1024x1024 (ix2 r c)) = 1#1 ↔ _
  rw [broadcastTo_1b_ab_apply, broadcastTo_a1_ab_apply]
  show IntOp.cmpi .slt (IntOp.addi _ (iota .tc S1x1024 32 [1] iota_S1x1024_d1_w32 (ix2 (0 : Fin 1) c))) (IntOp.addi _ (iota .tc S1024x1 32 [0] iota_S1024x1_d0_w32 (ix2 r (0 : Fin 1)))) = 1#1 ↔ _
  rw [iota_single_apply, iota_single_apply, IntOp.cmpi_slt]
  show (IntOp.addi (Scalar.muli (BitVec.ofNat 32 (i 1).val) 1024#32) (BitVec.ofNat 32 c.val)).toInt < (IntOp.addi (Scalar.muli (BitVec.ofNat 32 (i 0).val) 1024#32) (BitVec.ofNat 32 r.val)).toInt ↔ _
  rw [toInt_affine _ _ h1 c.isLt, toInt_affine _ _ h0 r.isLt]
  omega

/-- The matrix product at (r, c): the inner product of query row r and training row c of the two blocks. -/
theorem gram_apply (v2 v5 : FVec Ideal S1024x256 .bf16) (r c : Fin 1024) :
    matmul dot_S1024x256_S256x1024_S1024x1024_1_0_0_1_n_n none (shapeCast S1024x256 v2 shapeCasts_S1024x256_S1024x256)
        (transpose S256x1024 [1, 0] (shapeCast S1024x256 v5 shapeCasts_S1024x256_S1024x256) transposes_S1024x256_p1_0_S256x1024)
        (constant S1024x1024 .f32 0x00000000#32) (ix2 r c)
      = ∑ k : Fin 256, v2 (ix2 r k) * v5 (ix2 c k) := by
  rw [shapeCast_self, shapeCast_self]
  refine (Ideal.matmul_constant_zero_apply dot_S1024x256_S256x1024_S1024x1024_1_0_0_1_n_n none v2 _ (ix2 r c)).trans ?_
  rw [← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 r c) ((ValueIdx.contrEquiv1 dot_S1024x256_S256x1024_S1024x1024_1_0_0_1_n_n 256 rfl rfl).symm k) = ix2 r k :=
    funext fun a => Fin.ext (by
      match a with
      | ⟨0, _⟩ =>
        show (dot_S1024x256_S256x1024_S1024x1024_1_0_0_1_n_n.lhsIdx (ix2 r c) _ 0).val = r.val
        unfold DotDims.lhsIdx
        rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
        rfl
      | ⟨1, _⟩ => exact (dot_S1024x256_S256x1024_S1024x1024_1_0_0_1_n_n.lhsIdx_val_of_single rfl (ix2 r c) _).trans hk)
  have er : dot_S1024x256_S256x1024_S1024x1024_1_0_0_1_n_n.rhsIdx (ix2 r c) ((ValueIdx.contrEquiv1 dot_S1024x256_S256x1024_S1024x1024_1_0_0_1_n_n 256 rfl rfl).symm k) = ix2 k c :=
    funext fun a => Fin.ext (by
      match a with
      | ⟨0, _⟩ => exact (dot_S1024x256_S256x1024_S1024x1024_1_0_0_1_n_n.rhsIdx_val_of_single rfl (ix2 r c) _).trans hk
      | ⟨1, _⟩ =>
        show (dot_S1024x256_S256x1024_S1024x1024_1_0_0_1_n_n.rhsIdx (ix2 r c) _ 1).val = c.val
        unfold DotDims.rhsIdx
        rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
        rfl)
  rw [el, er, transpose_ix2_apply]

/-- The body's row sums at row r: over the 1024 columns, the masked Gaussian weight times the target. -/
theorem pay3_apply (i : grid0.Coords) (v2 v5 : FVec Ideal S1024x256 .bf16) (v8 v11 : FVec Ideal S1x1024 .f32)
    (v13 : FVec Ideal S1024x1 .f32) (r : Fin 1024) :
    k0_pay3 (F := Ideal) i v2 v5 v8 v11 v13 (ix1 r)
      = ∑ c : Fin 1024,
          (if 1024 * (i 1).val + c.val < 1024 * (i 0).val + r.val
            then Ideal.exp (negHalf * max (v13 (ix2 r (0 : Fin 1)) + v11 (ix2 (0 : Fin 1) c) - two * ∑ k : Fin 256, v2 (ix2 r k) * v5 (ix2 c k)) zero)
            else zero) * v8 (ix2 (0 : Fin 1) c) := by
  unfold k0_pay3
  dsimp only
  refine (sum_axis1_apply _ _ reduces_S1024x1024_S1024 _ _ r).trans ?_
  refine Finset.sum_congr rfl fun c _ => ?_
  rw [mulf_apply, select_apply, broadcastTo_1b_ab_apply]
  refine congrArg₂ (· * ·) ?_ (congrFun (shapeCast_self v8 shapeCasts_S1x1024_S1x1024) _)
  by_cases hm : 1024 * (i 1).val + c.val < 1024 * (i 0).val + r.val
  · rw [if_pos hm, (mask_apply i r c).mpr hm, select_one]
    show Ideal.exp (Ideal.ofBits .f32 0xBF000000#32 * max (_ - Ideal.ofBits .f32 0x40000000#32 * _) (Ideal.ofBits .f32 0x00000000#32)) = _
    rw [gram_apply, addf_apply, broadcastTo_a1_ab_apply, broadcastTo_1b_ab_apply, shapeCast_self, shapeCast_self]
  · rw [if_neg hm, eq_zero_of_ne_one (fun h => hm ((mask_apply i r c).mp h)), select_zero]
    rfl

/-- The block of zeros the first column block stores. -/
theorem pay1_apply (j : S1024x1.Idx) : k0_pay1 (F := Ideal) j = 0 := by
  unfold k0_pay1
  show Ideal.ofBits .f32 0x00000000#32 = 0
  exact Ideal.ofBits_zero_f32

/-- The body's store: the row sums, as a column, added to what the output block held. -/
theorem pay2_apply (v42 : FVec Ideal S1024 .f32) (v47 : FVec Ideal S1024x1 .f32) (r : Fin 1024) (u : Fin 1) :
    k0_pay2 (F := Ideal) v42 v47 (ix2 r u) = v47 (ix2 r u) + v42 (ix1 r) := by
  unfold k0_pay2
  rw [addf_apply, shapeCast_self, shapeCast_a_a1_apply]

/-- The row sums are one training block's contribution to the regression: if the five blocks hold, entry by entry, query
    rows 1024·bi + r of x and their squared norms, and training rows 1024·bj + c of y, their squared norms and their
    targets, then the body's sum at row r is the sum over block bj of weight times target, at the global row 1024·bi + r. -/
theorem rowSums_of_entries (i : grid0.Coords) (bi bj : ℕ) (hbi : bi < 8) (hbj : bj < 8) (hi0 : (i 0).val = bi) (hi1 : (i 1).val = bj)
    (x y : Mat) (v : Col)
    (v2 v5 : FVec Ideal S1024x256 .bf16) (v8 v11 : FVec Ideal S1x1024 .f32) (v13 : FVec Ideal S1024x1 .f32)
    (h2 : ∀ (r : Fin 1024) (k : Fin 256), v2 (ix2 r k) = x (ix2 (blk bi r) k))
    (h5 : ∀ (cc : Fin 1024) (k : Fin 256), v5 (ix2 cc k) = y (ix2 (blk bj cc) k))
    (h8 : ∀ cc : Fin 1024, v8 (ix2 (0 : Fin 1) cc) = v (ix2 (blk bj cc) (0 : Fin 1)))
    (h11 : ∀ cc : Fin 1024, v11 (ix2 (0 : Fin 1) cc) = rowSq y (blk bj cc))
    (h13 : ∀ r : Fin 1024, v13 (ix2 r (0 : Fin 1)) = rowSq x (blk bi r))
    (r : Fin 1024) :
    k0_pay3 (F := Ideal) i v2 v5 v8 v11 v13 (ix1 r) = chunk x y v (blk bi r) bj := by
  refine (pay3_apply i v2 v5 v8 v11 v13 r).trans ?_
  unfold chunk
  refine Finset.sum_congr rfl fun cc _ => ?_
  have hp := blk_val bi r hbi
  have hq := blk_val bj cc hbj
  rw [h8, h11, h13, hi0, hi1]
  refine congrArg₂ (· * ·) ?_ rfl
  unfold weight dist2 gram
  rw [hp, hq]
  refine if_congr Iff.rfl ?_ rfl
  refine congrArg (fun z => Ideal.exp (negHalf * max (rowSq x (blk bi r) + rowSq y (blk bj cc) - two * z) zero)) ?_
  exact Finset.sum_congr rfl fun k _ => by rw [h2, h5]

end Cert.KernelIdeal.Body

end
-- ==== Proof.Blocks.lean ====
/-
  What the kernel's windows hold, in terms of the three argument arrays, over the extended reals.

  Before the kernel is launched the host prepares five arrays: the query rows x and the training rows y in bf16 (the same
  extended reals), the squared norms of the query rows as a column, the squared norms of the training rows as a row, and the
  training targets transposed into a row.  At the grid point t = 8·bi + bj the kernel sees block bi (1024 rows) of the query
  rows and of their norms, and the three training arrays whole, out of which the body cuts the 1024 entries at offset
  1024·bj.  Read at an entry, each of these is the argument array at the global row 1024·bi + r or 1024·bj + c.
  With them the body's row sums at row r are the contribution of training block bj to the regression at the global row.
-/
import proofs.«175335_j22720376995867_1_alg».proof.Proof.Gen.KernelIdeal.Frame
import proofs.«175335_j22720376995867_1_alg».proof.Proof.Pieces
import proofs.«175335_j22720376995867_1_alg».proof.Proof.Payload
import proofs.«175335_j22720376995867_1_alg».proof.Proof.Weights
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.Regress Cert.KernelIdeal.Pieces

variable (m : (ℓ : Loc nD τ sig) → Buf (Elt Ideal) ℓ)

/-- The three argument arrays: query rows, training rows, training targets. -/
abbrev X (c : Dev nD) : Mat := m ((c : Thread nD τ).loc main_arg0)
abbrev Y (c : Dev nD) : Mat := m ((c : Thread nD τ).loc main_arg1)
abbrev Tg (c : Dev nD) : Col := m ((c : Thread nD τ).loc main_arg2)

/-! ## The arrays the host prepares -/

/-- The squared norms of the rows of an array, as the host computes them, read at row `p`. -/
theorem rowNorms_apply (x : FVec Ideal S8192x256 .f32) (p : Fin 8192) :
    Host.reduceAdd (F := Ideal) (mulf x x) (constant (F := Ideal) S_ .f32 0x00000000#32) reducesTo_S8192x256_S8192_d1 h_S_ (ix1 p)
      = rowSq x p := by
  simp only [Host.reduceAdd, Ideal.hostReduceAdd_def]
  rw [Ideal.hostReduceAdd_single reducesTo_S8192x256_S8192_d1 (by decide)]
  unfold rowSq
  refine congrArg₂ (· + ·) rfl (Finset.sum_congr rfl fun k _ => ?_)
  rw [mulf_apply]
  have e : (Shape.Reduces.lift (s := S8192x256) (t := S8192) (a := 1) (by decide) (ix1 p) k) = ix2 p k :=
    funext fun a => Fin.ext (by match a with | ⟨0, _⟩ => rfl | ⟨1, _⟩ => rfl)
  rw [e]
  rfl

theorem V_v0 (c : Dev nD) : (V m c main_v0 : S8192x256.Idx → EReal) = X m c := by
  dsimp only [Gen.V, Gen.hostOps0]; after_results; rfl

theorem V_v1 (c : Dev nD) : (V m c main_v1 : S8192x256.Idx → EReal) = Y m c := by
  dsimp only [Gen.V, Gen.hostOps0]; after_results; rfl

theorem V_v8 (c : Dev nD) : (V m c main_v8 : S1x8192.Idx → EReal)
    = transpose S1x8192 [1, 0] (Tg m c) transposes_S8192x1_S1x8192_1_0 := by
  dsimp only [Gen.V, Gen.hostOps0]; after_results

theorem V_v7 (c : Dev nD) : (V m c main_v7 : S1x8192.Idx → EReal)
    = broadcastInDim S1x8192 ![1] bcast_S8192_S1x8192_1
        (Host.reduceAdd (F := Ideal) (mulf (Y m c) (Y m c)) (constant (F := Ideal) S_ .f32 0x00000000#32) reducesTo_S8192x256_S8192_d1 h_S_) := by
  dsimp only [Gen.V, Gen.hostOps0]; after_results

theorem V_v4 (c : Dev nD) : (V m c main_v4 : S8192x1.Idx → EReal)
    = broadcastInDim S8192x1 ![0] bcast_S8192_S8192x1_0
        (Host.reduceAdd (F := Ideal) (mulf (X m c) (X m c)) (constant (F := Ideal) S_ .f32 0x00000000#32) reducesTo_S8192x256_S8192_d1 h_S_) := by
  dsimp only [Gen.V, Gen.hostOps0]; after_results

/-- The targets' row at column `q` is the target of training row `q`. -/
theorem V_v8_apply (c : Dev nD) (q : Fin 8192) : V m c main_v8 (ix2 (0 : Fin 1) q) = Tg m c (ix2 q (0 : Fin 1)) := by
  rw [V_v8]; exact transpose_ix2_apply (Tg m c) transposes_S8192x1_S1x8192_1_0 (0 : Fin 1) q

/-- The training norms' row at column `q` is the squared norm of training row `q`. -/
theorem V_v7_apply (c : Dev nD) (q : Fin 8192) : V m c main_v7 (ix2 (0 : Fin 1) q) = rowSq (Y m c) q := by
  rw [V_v7]
  refine (broadcastInDim_apply _ bcast_S8192_S1x8192_1 _ (ix2 (0 : Fin 1) q) (ix1 q) (fun a => match a with
    | ⟨0, _⟩ => by show q.val = if (8192 : Nat) = 1 then 0 else q.val; rw [if_neg (by decide)])).trans ?_
  exact rowNorms_apply (Y m c) q

/-- The query norms' column at row `p` is the squared norm of query row `p`. -/
theorem V_v4_apply (c : Dev nD) (p : Fin 8192) : V m c main_v4 (ix2 p (0 : Fin 1)) = rowSq (X m c) p := by
  rw [V_v4]
  refine (broadcastInDim_apply _ bcast_S8192_S8192x1_0 _ (ix2 p (0 : Fin 1)) (ix1 p) (fun a => match a with
    | ⟨0, _⟩ => by show p.val = if (8192 : Nat) = 1 then 0 else p.val; rw [if_neg (by decide)])).trans ?_
  exact rowNorms_apply (X m c) p

/-! ## The grid: point t = 8·bi + bj, each window's block index, the body's cut offsets -/

theorem grid_facts : ∀ t : Fin cfg0.N,
    (grid0.coords t 0).val = t.val / 8 ∧ (grid0.coords t 1).val = t.val % 8
    ∧ win0_0.index t (0 : Fin 2) = t.val / 8 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0
    ∧ k0_off1 (grid0.coords t) (0 : Fin 2) = 1024 * (t.val % 8) ∧ k0_off1 (grid0.coords t) (1 : Fin 2) = 0
    ∧ k0_off2 (grid0.coords t) (0 : Fin 2) = 0 ∧ k0_off2 (grid0.coords t) (1 : Fin 2) = 1024 * (t.val % 8) :=
  (by decide +kernel : ∀ t : Fin grid0.N, _)

theorem t_lt (t : Fin cfg0.N) : t.val < 64 := lt_of_lt_of_eq t.isLt (show cfg0.N = 64 from N_0)

/-! ## The blocks at a point, each at its literal shape -/

/-- Block bi of the query rows, the whole training rows, targets and training norms, and block bi of the query norms. -/
abbrev xBlk (c : Dev nD) (t : Fin cfg0.N) : FVec Ideal S1024x256 .bf16 := iblk m c 0 t
abbrev yAll (c : Dev nD) (t : Fin cfg0.N) : FVec Ideal S8192x256 .bf16 := iblk m c 1 t
abbrev tgAll (c : Dev nD) (t : Fin cfg0.N) : FVec Ideal S1x8192 .f32 := iblk m c 2 t
abbrev ynAll (c : Dev nD) (t : Fin cfg0.N) : FVec Ideal S1x8192 .f32 := iblk m c 3 t
abbrev xnBlk (c : Dev nD) (t : Fin cfg0.N) : FVec Ideal S1024x1 .f32 := iblk m c 4 t

/-! ## The blocks read at an entry -/

/-- Query rows: entry (r, k) of the block at point t is x at the global row. -/
theorem iblk0_apply (c : Dev nD) (t : Fin cfg0.N) (r : Fin 1024) (k : Fin 256) :
    xBlk m c t (ix2 r k) = X m c (ix2 (blk (t.val / 8) r) k) := by
  have ht := t_lt t
  obtain ⟨-, -, e0, e1, -⟩ := grid_facts t
  show iblk m c 0 t (ix2 r k) = _
  unfold iblk
  rw [View.read_apply]
  show V m c main_v0 _ = _
  rw [V_v0]
  refine congrArg (X m c) (funext fun a => Fin.ext ?_)
  match a with
  | ⟨0, _⟩ =>
    show win0_0.index t (0 : Fin 2) * 1024 + 1 * r.val = (blk (t.val / 8) r).val
    rw [e0, blk_val _ _ (by omega)]; omega
  | ⟨1, _⟩ =>
    show win0_0.index t (1 : Fin 2) * 256 + 1 * k.val = k.val
    rw [e1]; omega

/-- Query norms: entry (r, 0) of the block at point t is the squared norm of the global query row. -/
theorem iblk4_apply (c : Dev nD) (t : Fin cfg0.N) (r : Fin 1024) :
    xnBlk m c t (ix2 r (0 : Fin 1)) = rowSq (X m c) (blk (t.val / 8) r) := by
  have ht := t_lt t
  obtain ⟨-, -, -, -, -, -, -, -, -, -, e0, e1, -⟩ := grid_facts t
  show iblk m c 4 t (ix2 r (0 : Fin 1)) = _
  unfold iblk
  rw [View.read_apply]
  show V m c main_v4 _ = _
  rw [← V_v4_apply]
  refine congrArg (V m c main_v4) (funext fun a => Fin.ext ?_)
  match a with
  | ⟨0, _⟩ =>
    show win0_4.index t (0 : Fin 2) * 1024 + 1 * r.val = (blk (t.val / 8) r).val
    rw [e0, blk_val _ _ (by omega)]; omega
  | ⟨1, _⟩ =>
    show win0_4.index t (1 : Fin 2) * 1 + 1 * 0 = 0
    rw [e1]

/-- Training rows: the 1024 rows the body cuts out at point t, entry (cc, k), are y at the global row. -/
theorem rows_apply (c : Dev nD) (t : Fin cfg0.N) (cc : Fin 1024) (k : Fin 256) :
    rowsPart (F := Ideal) (grid0.coords t) (yAll m c t) (ix2 cc k) = Y m c (ix2 (blk (t.val % 8) cc) k) := by
  have ht := t_lt t
  obtain ⟨-, -, -, -, e0, e1, -, -, -, -, -, -, -, -, o0, o1, -⟩ := grid_facts t
  show iblk m c 1 t ((Rect.unit (s := S8192x256) (k0_off1 (grid0.coords t)) S1024x256.size (k0_off1_inb (grid0.coords t))).emb (ix2 cc k)) = _
  unfold iblk
  rw [View.read_apply]
  show V m c main_v1 _ = _
  rw [V_v1]
  refine congrArg (Y m c) (funext fun a => Fin.ext ?_)
  match a with
  | ⟨0, _⟩ =>
    show win0_1.index t (0 : Fin 2) * 8192 + 1 * (k0_off1 (grid0.coords t) (0 : Fin 2) + 1 * cc.val) = (blk (t.val % 8) cc).val
    rw [e0, o0, blk_val _ _ (by omega)]; omega
  | ⟨1, _⟩ =>
    show win0_1.index t (1 : Fin 2) * 256 + 1 * (k0_off1 (grid0.coords t) (1 : Fin 2) + 1 * k.val) = k.val
    rw [e1, o1]; omega

/-- Training targets: the 1024 entries the body cuts out at point t, entry (0, cc), are the targets of the global rows. -/
theorem targets_apply (c : Dev nD) (t : Fin cfg0.N) (cc : Fin 1024) :
    rowPart (F := Ideal) (grid0.coords t) (tgAll m c t) (ix2 (0 : Fin 1) cc) = Tg m c (ix2 (blk (t.val % 8) cc) (0 : Fin 1)) := by
  have ht := t_lt t
  obtain ⟨-, -, -, -, -, -, e0, e1, -, -, -, -, -, -, -, -, o0, o1⟩ := grid_facts t
  show iblk m c 2 t ((Rect.unit (s := S1x8192) (k0_off2 (grid0.coords t)) S1x1024.size (k0_off2_inb (grid0.coords t))).emb (ix2 (0 : Fin 1) cc)) = _
  unfold iblk
  rw [View.read_apply]
  show V m c main_v8 _ = _
  rw [← V_v8_apply]
  refine congrArg (V m c main_v8) (funext fun a => Fin.ext ?_)
  match a with
  | ⟨0, _⟩ =>
    show win0_2.index t (0 : Fin 2) * 1 + 1 * (k0_off2 (grid0.coords t) (0 : Fin 2) + 1 * 0) = 0
    rw [e0, o0]
  | ⟨1, _⟩ =>
    show win0_2.index t (1 : Fin 2) * 8192 + 1 * (k0_off2 (grid0.coords t) (1 : Fin 2) + 1 * cc.val) = (blk (t.val % 8) cc).val
    rw [e1, o1, blk_val _ _ (by omega)]; omega

/-- Training norms: the 1024 entries the body cuts out at point t, entry (0, cc), are the squared norms of the global rows. -/
theorem norms_apply (c : Dev nD) (t : Fin cfg0.N) (cc : Fin 1024) :
    rowPart (F := Ideal) (grid0.coords t) (ynAll m c t) (ix2 (0 : Fin 1) cc) = rowSq (Y m c) (blk (t.val % 8) cc) := by
  have ht := t_lt t
  obtain ⟨-, -, -, -, -, -, -, -, e0, e1, -, -, -, -, -, -, o0, o1⟩ := grid_facts t
  show iblk m c 3 t ((Rect.unit (s := S1x8192) (k0_off2 (grid0.coords t)) S1x1024.size (k0_off2_inb (grid0.coords t))).emb (ix2 (0 : Fin 1) cc)) = _
  unfold iblk
  rw [View.read_apply]
  show V m c main_v7 _ = _
  rw [← V_v7_apply]
  refine congrArg (V m c main_v7) (funext fun a => Fin.ext ?_)
  match a with
  | ⟨0, _⟩ =>
    show win0_3.index t (0 : Fin 2) * 1 + 1 * (k0_off2 (grid0.coords t) (0 : Fin 2) + 1 * 0) = 0
    rw [e0, o0]
  | ⟨1, _⟩ =>
    show win0_3.index t (1 : Fin 2) * 8192 + 1 * (k0_off2 (grid0.coords t) (1 : Fin 2) + 1 * cc.val) = (blk (t.val % 8) cc).val
    rw [e1, o1, blk_val _ _ (by omega)]; omega

/-! ## The body's row sums at a point are one block's contribution -/

/-- The body's row sums at point t, with the blocks the point sees, are the contribution of training block t mod 8 to the
    regression at the global row 1024·(t / 8) + r. -/
theorem rowSums_at (c : Dev nD) (t : Fin cfg0.N) (r : Fin 1024) :
    k0_pay3 (F := Ideal) (grid0.coords t) (xBlk m c t) (rowsPart (F := Ideal) (grid0.coords t) (yAll m c t))
        (rowPart (F := Ideal) (grid0.coords t) (tgAll m c t)) (rowPart (F := Ideal) (grid0.coords t) (ynAll m c t)) (xnBlk m c t) (ix1 r)
      = chunk (X m c) (Y m c) (Tg m c) (blk (t.val / 8) r) (t.val % 8) := by
  have ht := t_lt t
  obtain ⟨g0, g1, -⟩ := grid_facts t
  exact Cert.KernelIdeal.Body.rowSums_of_entries (grid0.coords t) (t.val / 8) (t.val % 8) (by omega) (by omega) g0 g1
    (X m c) (Y m c) (Tg m c) (xBlk m c t) (rowsPart (F := Ideal) (grid0.coords t) (yAll m c t))
    (rowPart (F := Ideal) (grid0.coords t) (tgAll m c t)) (rowPart (F := Ideal) (grid0.coords t) (ynAll m c t)) (xnBlk m c t)
    (fun r k => iblk0_apply m c t r k) (fun cc k => rows_apply m c t cc k) (fun cc => targets_apply m c t cc)
    (fun cc => norms_apply m c t cc) (fun r => iblk4_apply m c t r) r

end Cert.KernelIdeal.Blocks

end
-- ==== Proof.KernelValue.lean ====
/-
  The kernel's result array, as one function of the three argument arrays.

  The output block of a row block bi is carried across the eight column blocks bj = 0 … 7: zeroed at bj = 0, then each point
  adds its row sums.  So after the point t = 8·bi + bj the block holds, at row r, the sum over the training blocks 0 … bj
  of their contributions to the regression at the global row 1024·bi + r (by induction on the point; the partial sums are
  sums over an initial segment of the eight blocks).  The block is written back after bj = 7, when the sum is over all eight
  blocks, that is over all 8192 training rows.  The eight written blocks tile the 8192 × 1 result, so every entry of the
  result is the regression's value at its row.
-/
import proofs.«175335_j22720376995867_1_alg».proof.Proof.Gen.KernelIdeal.Value
import proofs.«175335_j22720376995867_1_alg».proof.Proof.Blocks
import Idealize.ShloMosaic.Lib.Pipeline.Value

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Regress Cert.KernelIdeal.Pieces Cert.KernelIdeal.Blocks Cert.KernelIdeal.Body

variable (m : (ℓ : Loc nD τ sig) → Buf (Elt Ideal) ℓ) (ρ : Dev nD → PrngReg)

/-- After point n the output block holds, at row r, the contributions of the training blocks 0 … n mod 8 to row 1024·(n / 8) + r. -/
theorem outsAt_apply (c : Dev nD) : ∀ (n : ℕ) (hn : n < cfg0.N) (r : Fin 1024) (u : Fin 1),
    (outsAt0 m c n hn : FVec Ideal S1024x1 .f32) (ix2 r u)
      = ∑ j ∈ Finset.range (n % 8 + 1), chunk (X m c) (Y m c) (Tg m c) (blk (n / 8) r) j
  | 0, hn, r, u => by
    rw [outsAt0_A m c ⟨0, hn⟩ rfl, out_A, pay2_apply, pay1_apply, zero_add]
    exact (rowSums_at m c ⟨0, hn⟩ r).trans (Finset.sum_range_one _).symm
  | n + 1, hn, r, u => by
    by_cases h0 : (n + 1) % 8 = 0
    · rw [outsAt0_A m c ⟨n + 1, hn⟩ h0, out_A, pay2_apply, pay1_apply, zero_add]
      refine (rowSums_at m c ⟨n + 1, hn⟩ r).trans ?_
      show chunk _ _ _ (blk ((n + 1) / 8) r) ((n + 1) % 8) = _
      rw [h0, Finset.sum_range_one]
    · rw [outsAt0_B m c ⟨n + 1, hn⟩ h0, out_B, pay2_apply]
      refine (congrArg₂ (· + ·) (outsAt_apply c n (Nat.lt_of_succ_lt hn) r u) (rowSums_at m c ⟨n + 1, hn⟩ r)).trans ?_
      show _ + chunk _ _ _ (blk ((n + 1) / 8) r) ((n + 1) % 8) = _
      have e1 : (n + 1) / 8 = n / 8 := by omega
      have e2 : (n + 1) % 8 = n % 8 + 1 := by omega
      rw [e1, e2, Finset.sum_range_succ _ (n % 8 + 1)]

/-- The result: at row p, the regression's value. -/
def result (c : Dev nD) : Buf (Elt Ideal) ((c : Thread nD τ).loc main_v9) :=
  fun i => G (X m c) (Y m c) (Tg m c) ⟨(i 0).val, idx2_lt0 i⟩

/-- What a writing point writes back is its block of the result. -/
theorem flushed_eq (c : Dev nD) (t : Fin cfg0.N) (hf : (cfg0.win 5).flush t = true) :
    (dats m 0 c).flushed 5 t = ((cfg0.win 5).blk t).view.read (Elt Ideal) (result m c) := by
  have h7 := (flush0_5 t).mp hf
  have ht := t_lt t
  obtain ⟨-, -, -, -, -, -, -, -, -, -, -, -, e0, e1, -⟩ := grid_facts t
  rw [Cert.KernelIdeal.Value.flushed5]
  funext j
  obtain ⟨r, u, rfl⟩ : ∃ (r : Fin 1024) (u : Fin 1), j = ix2 r u := ⟨j 0, j 1, eq_ix2 j⟩
  show outsAt0 m c t.val t.isLt (ix2 r u) = result m c (((cfg0.win 5).blk t).view.emb (ix2 r u))
  rw [outsAt_apply, h7]
  unfold result
  rw [G_eq_sum_chunks]
  refine Finset.sum_congr rfl fun j _ => congrArg (fun p => chunk (X m c) (Y m c) (Tg m c) p j) (Fin.ext ?_)
  show (blk (t.val / 8) r).val = win0_5.index t (0 : Fin 2) * 1024 + 1 * r.val
  rw [e0, blk_val _ _ (by omega)]; omega

/-- An index of the result is in point t's block iff each coordinate is in the block's range on its axis. -/
theorem mem_blk (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v9).slice (win0_5.rect t)).set ↔ _
  rw [View.set_slice_whole, Rect.mem_set_unit]
  exact Iff.rfl

/-- The written blocks cover the result: row p lies in the block written after the last column block of row block p / 1024. -/
theorem cover (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 64 := N_0
  let t : Fin cfg0.N := ⟨8 * ((i 0).val / 1024) + 7, by rw [hN]; omega⟩
  have htv : t.val = 8 * ((i 0).val / 1024) + 7 := rfl
  obtain ⟨-, -, -, -, -, -, -, -, -, -, -, -, e0, e1, -⟩ := grid_facts t
  refine ⟨t, (flush0_5 t).mpr (by rw [htv]; omega), ?_⟩
  rw [mem_blk]
  intro a
  match a with
  | ⟨0, _⟩ =>
    show win0_5.index t (0 : Fin 2) * 1024 ≤ (i 0).val ∧ (i 0).val < win0_5.index t (0 : Fin 2) * 1024 + 1024
    rw [e0, htv]; omega
  | ⟨1, _⟩ =>
    show win0_5.index t (1 : Fin 2) * 1 ≤ (i 1).val ∧ (i 1).val < win0_5.index t (1 : Fin 2) * 1 + 1
    rw [e1]; omega

/-- So the result array ends holding the regression's values. -/
theorem final (c : Dev nD) : (dats m 0 c).arrAt 5 cfg0.N = result m c :=
  (dats m 0 c).arrAt_eq_of_cover 5 (result m c) (fun t hf => flushed_eq m c t hf) cover

/-- The kernel's run, read: the result array at the regression's values, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Final

end
-- ==== Proof.RefValue.lean ====
/-
  The reference, read one entry at a time over the extended reals: its result at row p is the regression's value.

  The reference forms the full 8192 × 8192 table of clamped squared distances, replaces by +∞ every entry whose column
  index q is not below its row index p (its mask is "not (p − 1 ≥ q)", compared as signed 32-bit words: for p = 0 the
  left side is −1 and the comparison fails, as it must), multiplies by −½, takes the exponential, and multiplies the
  table with the column of targets.  An entry masked to +∞ becomes exp (−∞) = 0, so each weight is the regression's,
  and a row of the matrix product is the sum over the training rows of weight times target.
-/
import proofs.«175335_j22720376995867_1_alg».proof.Proof.RefRead
import proofs.«175335_j22720376995867_1_alg».proof.Proof.Weights
import proofs.«175335_j22720376995867_1_alg».proof.Proof.LibSignedCompare
import Idealize.ShloMosaic.Lib.ValueIdx
import Idealize.ShloMosaic.PureOps.Ideal.Laws

noncomputable section

namespace Cert.ReferenceIdeal.RefValue

open Cert.ReferenceIdeal Cert.ReferenceIdeal.ReadP Idealize.ShloMosaic Idealize.ShloMosaic.ValueIdx Cert.Regress
open Cert.Lib.SignedCompare

/-- The word p + (−1), read signed, is p − 1 (it is −1 for p = 0). -/
theorem toInt_pred (p : ℕ) (hp : p < 8192) : (IntOp.addi (BitVec.ofNat 32 p) 4294967295#32).toInt = (p : Int) - 1 := by
  have h1 : (4294967295#32 : BitVec 32).toInt = -1 := by decide
  rw [IntOp.addi, BitVec.toInt_add, toInt_small p (by omega), h1]
  have h₁ : -2 ^ 31 ≤ (p : Int) + -1 := by omega
  have h₂ : (p : Int) + -1 < 2 ^ 31 := by omega
  rw [Int.bmod_eq_of_le (by omega) (by omega)]
  omega

/-- The comparison "p − 1 ≥ q" on the words holds exactly when q < p. -/
theorem causal_iff (p q : Fin 8192) :
    IntOp.cmpi .sge (IntOp.addi (BitVec.ofNat 32 p.val) 4294967295#32) (BitVec.ofNat 32 q.val) = 1#1 ↔ q.val < p.val := by
  have hq := q.isLt
  rw [IntOp.cmpi_sge, toInt_pred _ p.isLt, toInt_small _ (by omega)]
  omega

/-- The mask at (p, q): set exactly when q is not below p. -/
theorem mask_entry (p q : Fin 8192) : val_main_v17 (F := Ideal) (ix2 p q) = if q.val < p.val then 0#1 else 1#1 := by
  rw [val_main_v17_apply, val_main_call0_v4_apply, val_main_call0_v2_apply, val_main_call0_v0_apply, val_main_call0_v1_apply,
    val_main_call0_c_apply, val_main_call0_v3_apply, val_main_call0_v5_apply, val_main_call0_c_0_apply, val_main_v16_apply, val_main_c_apply]
  show Scalar.select (IntOp.cmpi .sge (IntOp.addi (BitVec.ofNat 32 p.val) 4294967295#32) (BitVec.ofNat 32 q.val)) 0#1 1#1 = _
  by_cases h : q.val < p.val
  · rw [if_pos h, (causal_iff p q).mpr h, select_one]
  · rw [if_neg h, eq_zero_of_ne_one (fun hh => h ((causal_iff p q).mp hh)), select_zero]

/-- The clamped squared distance at (p, q). -/
theorem dist_entry (x0 x1 : FVec Ideal S8192x256 .f32) (p q : Fin 8192) :
    val_main_v15 (F := Ideal) x0 x1 (ix2 p q) = dist2 x0 x1 p q := by
  have e1 : ∀ k : Fin 256, idx_main_v1 (idx_main_v2 (idx_main_v6 (ix2 p q))) k = ix2 p k := fun k => funext fun a => Fin.ext (by match a with | ⟨0, _⟩ => rfl | ⟨1, _⟩ => rfl)
  have e2 : ∀ k : Fin 256, idx_main_v4 (idx_main_v5 (idx_main_v7 (ix2 p q))) k = ix2 q k := fun k => funext fun a => Fin.ext (by match a with | ⟨0, _⟩ => rfl | ⟨1, _⟩ => rfl)
  have e3 : ∀ k : Fin 256, lidx_main_v10 (ix2 p q) k = ix2 p k := fun k => funext fun a => Fin.ext (by match a with | ⟨0, _⟩ => rfl | ⟨1, _⟩ => rfl)
  have e4 : ∀ k : Fin 256, idx_main_v9 (ridx_main_v10 (ix2 p q) k) = ix2 q k := fun k => funext fun a => Fin.ext (by match a with | ⟨0, _⟩ => rfl | ⟨1, _⟩ => rfl)
  rw [val_main_v15_apply, val_main_v13_apply, val_main_v8_apply, val_main_v6_apply, val_main_v2_apply, val_main_v1_apply,
    val_main_v7_apply, val_main_v5_apply, val_main_v4_apply, val_main_v12_apply, val_main_v11_apply, val_main_v10_apply,
    val_main_v14_apply]
  simp only [e1, e2, e3, e4, val_main_v0_apply, val_main_v3_apply, val_main_v9_apply, val_main_cst_apply, val_main_cst_0_apply,
    val_main_cst_1_apply, val_main_cst_2_apply, Ideal.maximumf_def, Ideal.subf_def, Ideal.addf_def, Ideal.mulf_def, Ideal.ofBits_def]
  rfl

/-- The weight at (p, q): the masked distance through the exponential is the regression's weight. -/
theorem weight_entry (x0 x1 : FVec Ideal S8192x256 .f32) (p q : Fin 8192) :
    val_main_v21 (F := Ideal) x0 x1 (ix2 p q) = weight x0 x1 p q := by
  rw [val_main_v21_apply, val_main_v20_apply, val_main_v19_apply, val_main_cst_4_apply, val_main_v18_apply, mask_entry,
    val_main_call1_v1_apply, val_main_call1_v0_apply, val_main_cst_3_apply, dist_entry]
  rw [← weight_of_masked_dist]
  by_cases h : q.val < p.val
  · rw [if_pos h, if_pos h, select_zero]; rfl
  · rw [if_neg h, if_neg h, select_one]; rfl

/-- The reference's result at row p. -/
theorem result_entry (x0 x1 : FVec Ideal S8192x256 .f32) (x2 : FVec Ideal S8192x1 .f32) (p : Fin 8192) (u : Fin 1) :
    val_main_v22 (F := Ideal) x0 x1 x2 (ix2 p u) = G x0 x1 x2 p := by
  rw [val_main_v22_apply]
  unfold G
  refine Finset.sum_congr rfl fun q _ => ?_
  have el : lidx_main_v22 (ix2 p u) q = ix2 p q := funext fun a => Fin.ext (by match a with | ⟨0, _⟩ => rfl | ⟨1, _⟩ => rfl)
  have er : ridx_main_v22 (ix2 p u) q = ix2 q (0 : Fin 1) :=
    funext fun a => Fin.ext (by match a with | ⟨0, _⟩ => rfl | ⟨1, _⟩ => show u.val = 0; omega)
  rw [el, er, weight_entry]

end Cert.ReferenceIdeal.RefValue

end
-- ==== Proof.lean ====
/-
  Gaussian kernel regression with a causal, leave-one-out mask: a tiled kernel against its plain reference, equal over
  the extended reals.

  Both programs compute, for query rows x, training rows y and training targets v,

      out p = ∑ q, w p q · v q,   w p q = exp (-½ · max (‖x p‖² + ‖y q‖² − 2 ⟨x p, y q⟩, 0)) for q < p, and 0 otherwise.

  The reference builds the whole 8192 × 8192 table, masks the squared distance with +∞ where q ≥ p (so the weight is
  exp (−∞) = 0), and multiplies the table of weights with the column of targets.  The kernel walks an 8 × 8 grid of
  1024 × 1024 tiles; in each tile it masks the weight itself with 0, multiplies by the targets and sums each row, and it
  accumulates the eight row sums of a row block in its output block, which is zeroed at the first tile and written back
  after the last.  The two results agree entry by entry because the masked weights agree (a negative real times +∞ is −∞,
  and exp (−∞) = 0) and because a sum over the 8192 training rows is the sum of the eight blocks' sums: addition of
  extended reals is commutative and associative.  No finiteness of the inputs is needed.

  The three frame claims are the programs' runs with the results dropped; the idealization rewrote nothing, so the
  preservation claim is trivial.
-/
import proofs.«175335_j22720376995867_1_alg».proof.Defs
import proofs.«175335_j22720376995867_1_alg».proof.Proof.Gen.Kernel
import proofs.«175335_j22720376995867_1_alg».proof.Proof.Gen.Kernel.Frame
import proofs.«175335_j22720376995867_1_alg».proof.Proof.Gen.KernelIdeal
import proofs.«175335_j22720376995867_1_alg».proof.Proof.Gen.KernelIdeal.Frame
import proofs.«175335_j22720376995867_1_alg».proof.Proof.Gen.ReferenceIdeal
import proofs.«175335_j22720376995867_1_alg».proof.Proof.Gen.Pre_finite_inputs
import proofs.«175335_j22720376995867_1_alg».proof.Proof.Gen.KernelIdeal.Value
import proofs.«175335_j22720376995867_1_alg».proof.Proof.KernelValue
import proofs.«175335_j22720376995867_1_alg».proof.Proof.RefRun
import proofs.«175335_j22720376995867_1_alg».proof.Proof.RefRead
import proofs.«175335_j22720376995867_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end with the result array at the regression's values of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v22_eq, (hagree c).1, (hagree c).2.1, (hagree c).2.2]
  funext i
  obtain ⟨p, u, rfl⟩ : ∃ (p : Fin 8192) (u : Fin 1), i = ix2 p u := ⟨i 0, i 1, eq_ix2 i⟩
  exact Cert.ReferenceIdeal.RefValue.result_entry _ _ _ p u

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
